-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 33
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S100000, .f32⟩
  | .hbm, ⟨15, _⟩ => ⟨S128x128, .f32⟩
  | .hbm, ⟨16, _⟩ => ⟨S1x128, .f32⟩
  | .hbm, ⟨17, _⟩ => ⟨S100000x1, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S100000x1.size a
  hwx1_0 : ∀ i : grid1.Coords, EltTy.bits .f32 = 32 ∨ (Rect.block (s := S100000x1) S5000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1600000x128 : Shape := ⟨2, ![1600000, 128]⟩
abbrev S100000x1 : Shape := ⟨2, ![100000, 1]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S100000, .f32⟩
  | .hbm, ⟨15, _⟩ => ⟨S128x128, .f32⟩
  | .hbm, ⟨16, _⟩ => ⟨S100000x128, .f32⟩
  | .hbm, ⟨17, _⟩ => ⟨S1x128, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000x1, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run, with its result named.  The program is four segments: a stretch of host
  operations (the degree count, its inverse square root, the transposed weights), the projection region, a second
  stretch (the edge gather and the accumulating scatter), and the combine region.  Every weakly fair execution ends
  with each unscoped buffer at the contents the fold of the four segments over the launch memory gives it; read at
  the program's result and at its four arguments this is the statement below.
-/
import proofs.«172108_j19902878450413_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents
    the last segment boundary gives it (the combine region's output array after all its write-backs), and the
    four arguments end as launched. -/
theorem run_result : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.Payload.lean ====
/-
  The two kernel bodies' arithmetic, read at one entry of the block, on the extended reals.

  The projection body computes, for row p and column q of its block,
      d[p] * ( (sum over k of x[p,k] * w[k,q]) + b[q] ),
  where x is the block of node features, w the (already transposed) weight matrix, b the bias row and d the column
  of inverse square-root degrees: the matrix product is taken into a zero accumulator, and the narrowing of both
  factors to a shorter float format is the identity on the extended reals.

  The combine body computes d[p] * (agg[p,q] + hn[p,q]).
-/
import proofs.«172108_j19902878450413_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The combine body's arithmetic on one entry: the degree factor times the sum of the two addends. -/
def comb (d a h : EReal) : EReal := d * (a + h)
/-- One row of the left factor against one column of the right factor. -/
def dotRow (x w : Fin 128 → EReal) : EReal := ∑ k : Fin 128, x k * w k
/-- The projection body's arithmetic on one entry: the degree factor times the product's entry plus the bias. -/
def lin (d s b : EReal) : EReal := d * (s + b)

/-- A column vector broadcast along the lanes reads its row's entry. -/
theorem column_bcast_at (x : Vec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row vector broadcast down the rows reads its column's entry. -/
theorem row_bcast_at (x : Vec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The combine body at an entry: the degree factor of the row times the sum of the aggregate and the self term. -/
theorem combine_at (x0 : Vec Ideal S5000x1 .f32) (x1 x2 : Vec Ideal S5000x128 .f32) (p : Fin 5000) (q : Fin 128) :
    k1_pay1 (F := Ideal) x0 x1 x2 (ix2 p q) = comb (x0 (ix2 p 0)) (x1 (ix2 p q)) (x2 (ix2 p q)) := by
  unfold k1_pay1 comb
  simp only [mulf_apply, addf_apply, shapeCast_self]
  rw [column_bcast_at]

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix product of a block of rows with the weight matrix, into a zero accumulator, at an entry: the sum
    over the contracted axis of the products. -/
theorem matmul_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The projection body at an entry. -/
theorem linear_at (x : Vec Ideal S5000x128 .f32) (w : Vec Ideal S128x128 .f32) (b : Vec Ideal S1x128 .f32)
    (d : Vec Ideal S5000x1 .f32) (p : Fin 5000) (q : Fin 128) :
    k0_pay1 (F := Ideal) x w b d (ix2 p q)
      = lin (d (ix2 p 0)) (dotRow (fun k => x (ix2 p k)) (fun k => w (ix2 k q))) (b (ix2 0 q)) := by
  unfold k0_pay1 lin dotRow
  simp only [mulf_apply, addf_apply, shapeCast_self]
  rw [column_bcast_at, row_bcast_at, matmul_at]
  rfl

end Cert.KernelIdeal.Pay

end
-- ==== Proof.KCombine.lean ====
/-
  The combine region's output array as one function of the three arrays it reads.

  The region walks twenty blocks of 5000 rows; at block t it reads rows [5000 t, 5000 t + 5000) of the degree column
  d, of the aggregate agg and of the scaled projection hn, and writes the same rows of the output.  Every row lies in
  exactly the block numbered by its quotient by 5000, so after all write-backs the output array holds, at (r, k),
      d[r] * (agg[r,k] + hn[r,k]).
-/
import proofs.«172108_j19902878450413_2_alg».proof.Proof.Gen.KernelIdeal.Frame
import proofs.«172108_j19902878450413_2_alg».proof.Proof.Payload

set_option maxRecDepth 16384

noncomputable section

namespace Cert.KernelIdeal.Combine

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array the region leaves, entry by entry: the row's degree factor times the sum of the two addends. -/
def G (d : S100000x1.Idx → Elt Ideal .f32) (a h : S100000x128.Idx → Elt Ideal .f32) : S100000x128.Idx → Elt Ideal .f32 :=
  fun i => Pay.comb (d (ix2 (i 0) 0)) (a i) (h i)

/-- The block index maps, decided over the twenty grid points: all four windows move with the point along the rows,
    and stay at column block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point t writes back is block t of G of the arrays as the region finds them. -/
theorem flushed_eq (c : Dev nD) (t : Fin cfg1.N) :
    (dat1 V c).flushed 3 t = ((cfg1.win 3).blk t).view.read (Elt Ideal) (G (V c main_v11) (V c main_v22) (V c main_v12)) := by
  show (cfg1.win 3).cut (grid1.coords t) ((dat1 V c).after 3 t) = _
  rw [after1_3]
  unfold out1_3
  rw [View.canon_unit_zero hz]
  simp only [View.ld_unit_zero (S := S5000x1) hz, View.ld_unit_zero (S := S5000x128) hz]
  obtain ⟨e00, e01, e10, e11, e20, e21, e30, e31⟩ := idx_facts t
  funext j
  refine (congrArg (k1_pay1 (F := Ideal) (iblk1 V c 0 t) (iblk1 V c 1 t) (iblk1 V c 2 t)) (eq_ix2 (n0 := 5000) (n1 := 128) j)).trans ?_
  refine (Pay.combine_at (iblk1 V c 0 t) (iblk1 V c 1 t) (iblk1 V c 2 t) (j 0) (j 1)).trans ?_
  show Pay.comb (V c main_v11 (((cfg1.win 0).blk t).view.emb (ix2 (j 0) 0)))
      (V c main_v22 (((cfg1.win 1).blk t).view.emb (ix2 (j 0) (j 1)))) (V c main_v12 (((cfg1.win 2).blk t).view.emb (ix2 (j 0) (j 1))))
    = Pay.comb (V c main_v11 (ix2 ((((cfg1.win 3).blk t).view.emb j) 0) 0))
      (V c main_v22 (((cfg1.win 3).blk t).view.emb j)) (V c main_v12 (((cfg1.win 3).blk t).view.emb j))
  have hj0 : (j 0).val < 5000 := (j 0).isLt
  have hj1 : (j 1).val < 128 := (j 1).isLt
  have h0 : (((cfg1.win 0).blk t).view.emb (ix2 (n0 := 5000) (n1 := 1) (j 0) 0) : S100000x1.Idx) = ix2 (n0 := 100000) (n1 := 1) ((((cfg1.win 3).blk t).view.emb j) 0) 0 := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 1 + 1 * 0 = 0; omega
  have h1 : (((cfg1.win 1).blk t).view.emb (ix2 (n0 := 5000) (n1 := 128) (j 0) (j 1)) : S100000x128.Idx) = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : (((cfg1.win 2).blk t).view.emb (ix2 (n0 := 5000) (n1 := 128) (j 0) (j 1)) : S100000x128.Idx) = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 128 + 1 * (j 1).val = win1_3.index t (1 : Fin 2) * 128 + 1 * (j 1).val; omega
  rw [h0, h1, h2]

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v23).slice (win1_3.rect t)).set ↔ _
  rw [View.set_slice_whole, Rect.mem_set_unit]
  exact Iff.rfl

/-- Every entry of the array is written by the block numbered by its row's quotient by 5000. -/
theorem cover (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  refine ⟨⟨(i 0).val / 5000, by rw [hN]; omega⟩, flush1_3 _, ?_⟩
  rw [mem_blk]
  obtain ⟨-, -, -, -, -, -, e30, e31⟩ := idx_facts ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e31]; omega

/-- The output array after the region: G of the arrays as the region finds them. -/
theorem final (c : Dev nD) :
    (dat1 V c).arrAt 3 cfg1.N = G (V c main_v11) (V c main_v22) (V c main_v12) :=
  (dat1 V c).arrAt_eq_of_cover 3 (G (V c main_v11) (V c main_v22) (V c main_v12)) (fun t _ => flushed_eq V c t) cover

end Cert.KernelIdeal.Combine

end
-- ==== Proof.KLinear.lean ====
/-
  The projection region's output array as one function of the four arrays it reads.

  The region walks twenty blocks of 5000 rows; at block t it reads rows [5000 t, 5000 t + 5000) of the node features x
  and of the degree column d, the whole transposed weight matrix w and the whole bias row b, and writes the same rows
  of its output.  After all write-backs the output array holds, at (r, c),
      d[r] * ( (sum over k of x[r,k] * w[k,c]) + b[c] ).
-/
import proofs.«172108_j19902878450413_2_alg».proof.Proof.Gen.KernelIdeal.Frame
import proofs.«172108_j19902878450413_2_alg».proof.Proof.Payload

set_option maxRecDepth 16384

noncomputable section

namespace Cert.KernelIdeal.Linear

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The array the region leaves, entry by entry: the row's degree factor times the row's projection plus the bias. -/
def G (x : S100000x128.Idx → Elt Ideal .f32) (d : S100000x1.Idx → Elt Ideal .f32) (w : S128x128.Idx → Elt Ideal .f32)
    (b : S1x128.Idx → Elt Ideal .f32) : S100000x128.Idx → Elt Ideal .f32 :=
  fun i => Pay.lin (d (ix2 (i 0) 0)) (Pay.dotRow (fun k => x (ix2 (i 0) k)) (fun k => w (ix2 k (i 1)))) (b (ix2 0 (i 1)))

/-- The block index maps, decided over the twenty grid points: the feature, degree and output windows move with the
    point along the rows; the weight and bias windows stay put. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point t writes back is block t of G of the arrays as the region finds them. -/
theorem flushed_eq (c : Dev nD) (t : Fin cfg0.N) :
    (dat0 V c).flushed 4 t = ((cfg0.win 4).blk t).view.read (Elt Ideal) (G (V c main_arg0) (V c main_v11) (V c main_v9) (V c main_v10)) := by
  show (cfg0.win 4).cut (grid0.coords t) ((dat0 V c).after 4 t) = _
  rw [after0_4]
  unfold out0_4
  rw [View.canon_unit_zero hz]
  simp only [View.ld_unit_zero (S := S5000x1) hz, View.ld_unit_zero (S := S5000x128) hz, View.ld_unit_zero (S := S128x128) hz,
    View.ld_unit_zero (S := S1x128) hz]
  obtain ⟨e00, e01, e10, e11, e20, e21, e30, e31, e40, e41⟩ := idx_facts t
  funext j
  refine (congrArg (k0_pay1 (F := Ideal) (iblk0 V c 0 t) (iblk0 V c 2 t) (iblk0 V c 3 t) (iblk0 V c 1 t)) (eq_ix2 (n0 := 5000) (n1 := 128) j)).trans ?_
  refine (Pay.linear_at (iblk0 V c 0 t) (iblk0 V c 2 t) (iblk0 V c 3 t) (iblk0 V c 1 t) (j 0) (j 1)).trans ?_
  show Pay.lin (V c main_v11 (((cfg0.win 1).blk t).view.emb (ix2 (j 0) 0)))
      (Pay.dotRow (fun k => V c main_arg0 (((cfg0.win 0).blk t).view.emb (ix2 (j 0) k))) (fun k => V c main_v9 (((cfg0.win 2).blk t).view.emb (ix2 k (j 1)))))
      (V c main_v10 (((cfg0.win 3).blk t).view.emb (ix2 0 (j 1))))
    = Pay.lin (V c main_v11 (ix2 ((((cfg0.win 4).blk t).view.emb j) 0) 0))
      (Pay.dotRow (fun k => V c main_arg0 (ix2 ((((cfg0.win 4).blk t).view.emb j) 0) k)) (fun k => V c main_v9 (ix2 k ((((cfg0.win 4).blk t).view.emb j) 1))))
      (V c main_v10 (ix2 0 ((((cfg0.win 4).blk t).view.emb j) 1)))
  have hj0 : (j 0).val < 5000 := (j 0).isLt
  have hj1 : (j 1).val < 128 := (j 1).isLt
  have hd : (((cfg0.win 1).blk t).view.emb (ix2 (n0 := 5000) (n1 := 1) (j 0) 0) : S100000x1.Idx) = ix2 (n0 := 100000) (n1 := 1) ((((cfg0.win 4).blk t).view.emb j) 0) 0 := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 1 + 1 * 0 = 0; omega
  have hx : ∀ k : Fin 128, (((cfg0.win 0).blk t).view.emb (ix2 (n0 := 5000) (n1 := 128) (j 0) k) : S100000x128.Idx) = ix2 (n0 := 100000) (n1 := 128) ((((cfg0.win 4).blk t).view.emb j) 0) k := by
    intro k; funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have hw : ∀ k : Fin 128, (((cfg0.win 2).blk t).view.emb (ix2 (n0 := 128) (n1 := 128) k (j 1)) : S128x128.Idx) = ix2 (n0 := 128) (n1 := 128) k ((((cfg0.win 4).blk t).view.emb j) 1) := by
    intro k; funext a; apply Fin.ext
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  have hb : (((cfg0.win 3).blk t).view.emb (ix2 (n0 := 1) (n1 := 128) 0 (j 1)) : S1x128.Idx) = ix2 (n0 := 1) (n1 := 128) 0 ((((cfg0.win 4).blk t).view.emb j) 1) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  rw [hd, hb]
  simp only [hx, hw]

/-- An index of the array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v12).slice (win0_4.rect t)).set ↔ _
  rw [View.set_slice_whole, Rect.mem_set_unit]
  exact Iff.rfl

/-- Every entry of the array is written by the block numbered by its row's quotient by 5000. -/
theorem cover (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  refine ⟨⟨(i 0).val / 5000, by rw [hN]; omega⟩, flush0_4 _, ?_⟩
  rw [mem_blk]
  obtain ⟨-, -, -, -, -, -, -, -, e40, e41⟩ := idx_facts ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [e40]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [e41]; omega

/-- The output array after the region: G of the arrays as the region finds them. -/
theorem final (c : Dev nD) :
    (dat0 V c).arrAt 4 cfg0.N = G (V c main_arg0) (V c main_v11) (V c main_v9) (V c main_v10) :=
  (dat0 V c).arrAt_eq_of_cover 4 (G (V c main_arg0) (V c main_v11) (V c main_v9) (V c main_v10)) (fun t _ => flushed_eq V c t) cover

end Cert.KernelIdeal.Linear

end
-- ==== Proof.KHost.lean ====
/-
  The idealized kernel program's result array as one term of its four arguments.

  Reading the program's four segments back to front: the result is the combine region's output, whose three inputs
  are the degree column (untouched since the first stretch of host operations), the aggregate (the second stretch's
  accumulating scatter of the gathered rows of the projection region's output, at the edges' source nodes) and the
  projection region's output itself.  The host operations of the two stretches are the same operations, in the same
  order, as the corresponding lines of the reference program, so their values are named by the reference's stages.
-/
import proofs.«172108_j19902878450413_2_alg».proof.Proof.KCombine
import proofs.«172108_j19902878450413_2_alg».proof.Proof.KLinear
import proofs.«172108_j19902878450413_2_alg».proof.Proof.Gen.ReferenceIdeal.Read

set_option maxRecDepth 16384

noncomputable section

namespace Cert.KernelIdeal.Host

open Cert.KernelIdeal Cert.KernelIdeal.Gen
open Idealize.ShloMosaic Idealize.ShloMosaic.TcCoe Idealize.ShloMosaic.ValueIdx Idealize.ShloMosaic.StableHlo
open Idealize.SL.Sem
open Idealize.ShloMosaic.Pipeline (Dat Cfg Window)
open Cert.ReferenceIdeal.Read

variable (m : (ℓ : Loc nD τ sig) → Buf (Elt Ideal) ℓ) (ρ : Dev nD → PrngReg)

/-- The degree factors as a column: the inverse square roots of the degrees, one per node. -/
def dcolOf (x1 : (⟨S2x1600000, .i32⟩ : BufTy).Contents (Elt Ideal)) : FVec Ideal S100000x1 .f32 :=
  shapeCast S100000x1 (val_main_v8 (F := Ideal) x1) shapeCasts_S100000_S100000x1

/-- The projection region's output: each node's projected features scaled by its degree factor. -/
def hnOf (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    FVec Ideal S100000x128 .f32 :=
  Linear.G x0 (dcolOf x1) (val_main_v9 (F := Ideal) x2) (shapeCast S1x128 x3 shapeCasts_S128_S1x128)

/-- The aggregate: for every edge the scaled projection of its target node, summed at its source node. -/
def aggOf (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    FVec Ideal S100000x128 .f32 :=
  Host.scatterAdd scatter_S100000x128_S1600000x1_S1600000x128_1_0_0_1 (val_main_v31 (F := Ideal))
    (val_main_v32 (F := Ideal) x1)
    (Host.gather gather_S100000x128_S1600000x1_S1600000x128_1_0_n_n_0_1_1128 (hnOf x0 x1 x2 x3) (val_main_v27 (F := Ideal) x1))

/-- The same three arrays of a launch memory's arguments. -/
abbrev dcol (c : Dev nD) := dcolOf (m ((c : Thread nD τ).loc main_arg1))
abbrev hn (c : Dev nD) := hnOf (m ((c : Thread nD τ).loc main_arg0)) (m ((c : Thread nD τ).loc main_arg1)) (m ((c : Thread nD τ).loc main_arg2)) (m ((c : Thread nD τ).loc main_arg3))
abbrev agg (c : Dev nD) := aggOf (m ((c : Thread nD τ).loc main_arg0)) (m ((c : Thread nD τ).loc main_arg1)) (m ((c : Thread nD τ).loc main_arg2)) (m ((c : Thread nD τ).loc main_arg3))

/-! ## The first stretch of host operations -/

theorem V1_arg0 (c : Dev nD) : V1 m ρ c main_arg0 = m ((c : Thread nD τ).loc main_arg0) := by
  show StableHlo.after hostOps0 (W0 m ρ c) (Proc.devRef .tc main_arg0) = _
  after_results
  try rfl
theorem V1_v11 (c : Dev nD) : V1 m ρ c main_v11 = dcol m c := by
  show StableHlo.after hostOps0 (W0 m ρ c) (Proc.devRef .tc main_v11) = _
  after_results
  try rfl
theorem V1_v9 (c : Dev nD) : V1 m ρ c main_v9 = val_main_v9 (F := Ideal) (m ((c : Thread nD τ).loc main_arg2)) := by
  show StableHlo.after hostOps0 (W0 m ρ c) (Proc.devRef .tc main_v9) = _
  after_results
  try rfl
theorem V1_v10 (c : Dev nD) : V1 m ρ c main_v10 = shapeCast S1x128 (m ((c : Thread nD τ).loc main_arg3)) shapeCasts_S128_S1x128 := by
  show StableHlo.after hostOps0 (W0 m ρ c) (Proc.devRef .tc main_v10) = _
  after_results
  try rfl
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  try rfl
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  try rfl

/-! ## After the projection region -/

theorem W2_v12 (c : Dev nD) : W2 m ρ c (Proc.devRef .tc main_v12) = hn m c := by
  refine (W2_arr m ρ c 4).trans ((Linear.final (V1 m ρ) c).trans ?_)
  rw [V1_arg0, V1_v11, V1_v9, V1_v10]; rfl
theorem W2_v11 (c : Dev nD) : W2 m ρ c (Proc.devRef .tc main_v11) = dcol m c :=
  ((W2_arr m ρ c 1).trans (((dat0 (V1 m ρ) c).arrAt_in 1 rfl _).trans (A_eq0 (V1 m ρ) c 1))).trans (V1_v11 m ρ c)
theorem W2_v1 (c : Dev nD) : W2 m ρ c (Proc.devRef .tc main_v1) = val_main_v1 (F := Ideal) (m ((c : Thread nD τ).loc main_arg1)) :=
  (W2_of_ne m ρ c main_v1 (by decide)).trans (W1_v1 m ρ c)
theorem W2_v3 (c : Dev nD) : W2 m ρ c (Proc.devRef .tc main_v3) = val_main_v3 (F := Ideal) (m ((c : Thread nD τ).loc main_arg1)) :=
  (W2_of_ne m ρ c main_v3 (by decide)).trans (W1_v3 m ρ c)

/-! ## The second stretch of host operations -/

theorem V3_v11 (c : Dev nD) : V3 m ρ c main_v11 = dcol m c := by
  show StableHlo.after hostOps1 (W2 m ρ c) (Proc.devRef .tc main_v11) = _
  after_results
  exact W2_v11 m ρ c
theorem V3_v12 (c : Dev nD) : V3 m ρ c main_v12 = hn m c := by
  show StableHlo.after hostOps1 (W2 m ρ c) (Proc.devRef .tc main_v12) = _
  after_results
  exact W2_v12 m ρ c
theorem V3_v22 (c : Dev nD) : V3 m ρ c main_v22 = agg m c := by
  show StableHlo.after hostOps1 (W2 m ρ c) (Proc.devRef .tc main_v22) = _
  after_results
  rw [W2_v12, W2_v1, W2_v3]
  rfl

/-! ## The result -/

/-- The result array: at (r, k), the degree factor of r times the sum of the aggregate and the scaled projection. -/
theorem result_eq (c : Dev nD) :
    W4 m ρ c (Proc.devRef .tc main_v23) = Combine.G (dcol m c) (agg m c) (hn m c) := by
  refine (W4_arr m ρ c 3).trans ((Combine.final (V3 m ρ) c).trans ?_)
  rw [V3_v11, V3_v22, V3_v12]

end Cert.KernelIdeal.Host

end
-- ==== Proof.SegIndex.lean ====
/-
  Index arithmetic of a graph layer with 100000 nodes, 1600000 edges and 128 features, as pure mathematics.

  The edge list is an integer array of shape [1600000, 1]: entry (e, 0) is the node edge e points at. Four
  dimension-number records read it: a rank-1 and a rank-2 gather (node value, resp. node row, of each edge) and a
  rank-1 and a rank-2 accumulating scatter (edge value, resp. edge row, added into its node). All four read the SAME
  start index for edge e, the entry (e, 0), and none moves it on the node axis (the node axis is collapsed in the
  gathers and inserted in the scatters). Two consequences are proved here:

  * gather_mul: gathering the rows of the array (n, k) ↦ D n * H (n, k) is the gathered D times the gathered H;
  * combine: with D the reciprocal square root of a node's in-degree and A what the rank-2 scatter adds into a row
    of that node, D * (A + D * h) = D * A + (D * D) * h in the extended reals. Distributivity fails there in general;
    it holds here because either the in-degree is positive, and D is a nonnegative real, or it is zero, and then no
    edge lands on the node, so A = 0.
-/
import Idealize.ShloMosaic.PureOps.Ideal
import Idealize.ShloMosaic.PureOps.Ideal.Laws
import Idealize.ShloMosaic.Lib.ValueIdx
import Mathlib.Data.EReal.Operations

noncomputable section

open scoped BigOperators

namespace Cert.SegIndex

open Idealize.ShloMosaic Idealize.ShloMosaic.ValueIdx

/-! ## Shapes and dimension numbers -/

/-- One value per node. -/
abbrev SN : Shape := ⟨1, ![100000]⟩
/-- One row of 128 features per node. -/
abbrev SNK : Shape := ⟨2, ![100000, 128]⟩
/-- The edge list: one start index per edge. -/
abbrev SE1 : Shape := ⟨2, ![1600000, 1]⟩
/-- One value per edge. -/
abbrev SE : Shape := ⟨1, ![1600000]⟩
/-- One row of 128 features per edge. -/
abbrev SEK : Shape := ⟨2, ![1600000, 128]⟩

/-- Scatter of one value per edge into the nodes. -/
abbrev scD1 (wf : ScatterDims.WF SN SE1 SE [] [0] [0] 1) : ScatterDims SN SE1 SE where
  updateWindowDims := []
  insertedWindowDims := [0]
  scatterDimsToOperandDims := [0]
  indexVectorDim := 1
  wf := wf

/-- Scatter of one row per edge into the node rows. -/
abbrev scD2 (wf : ScatterDims.WF SNK SE1 SEK [1] [0] [0] 1) : ScatterDims SNK SE1 SEK where
  updateWindowDims := [1]
  insertedWindowDims := [0]
  scatterDimsToOperandDims := [0]
  indexVectorDim := 1
  wf := wf

/-- Gather of one node value per edge. -/
abbrev gaD1 (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

/-- Gather of one node row per edge. -/
abbrev gaD2 (wf : GatherDims.WF SNK SE1 SEK [1] [0] [] [0] [] 1 ![1, 128]) : GatherDims SNK SE1 SEK where
  offsetDims := [1]
  collapsedSliceDims := [0]
  operandBatchingDims := []
  startIndicesBatchingDims := []
  startIndexMap := [0]
  indexVectorDim := 1
  sliceSizes := ![1, 128]
  wf := wf

/-- The edge list's entry for edge e: index (e, 0). -/
abbrev edgeIdx (e : Fin 1600000) : SE1.Idx := ix2 e (0 : Fin 1)

/-! ## Every record reads edge e's start index at (e, 0) -/

theorem sc1_siIdx (wf : ScatterDims.WF SN SE1 SE [] [0] [0] 1) (e : SE.Idx)
    (c : Fin (scD1 wf).scatterDimsToOperandDims.length) : (scD1 wf).siIdx e c = edgeIdx (e 0) := by
  funext b; refine Fin.ext ?_
  have hc : c.val = 0 := Nat.lt_one_iff.mp c.isLt
  match b with
  | ⟨0, _⟩ => rfl
  | ⟨1, _⟩ => exact hc

theorem sc2_siIdx (wf : ScatterDims.WF SNK SE1 SEK [1] [0] [0] 1) (y : SEK.Idx)
    (c : Fin (scD2 wf).scatterDimsToOperandDims.length) : (scD2 wf).siIdx y c = edgeIdx (y 0) := by
  funext b; refine Fin.ext ?_
  have hc : c.val = 0 := Nat.lt_one_iff.mp c.isLt
  match b with
  | ⟨0, _⟩ => rfl
  | ⟨1, _⟩ => exact hc

theorem ga1_siIdx (wf : GatherDims.WF SN SE1 SE [] [0] [] [0] [] 1 ![1]) (e : SE.Idx)
    (c : Fin (gaD1 wf).startIndexMap.length) : (gaD1 wf).siIdx e c = edgeIdx (e 0) := by
  funext b; refine Fin.ext ?_
  have hc : c.val = 0 := Nat.lt_one_iff.mp c.isLt
  match b with
  | ⟨0, _⟩ => rfl
  | ⟨1, _⟩ => exact hc

theorem ga2_siIdx (wf : GatherDims.WF SNK SE1 SEK [1] [0] [] [0] [] 1 ![1, 128]) (y : SEK.Idx)
    (c : Fin (gaD2 wf).startIndexMap.length) : (gaD2 wf).siIdx y c = edgeIdx (y 0) := by
  funext b; refine Fin.ext ?_
  have hc : c.val = 0 := Nat.lt_one_iff.mp c.isLt
  match b with
  | ⟨0, _⟩ => rfl
  | ⟨1, _⟩ => exact hc

/-! ## The scatters on the node axis: the signed start index, no window offset -/

theorem sc1_start (wf : ScatterDims.WF SN SE1 SE [] [0] [0] 1) {w : Nat} (e : SE.Idx) (idx : IVec SE1 w) :
    (scD1 wf).start e idx 0 = (idx (edgeIdx (e 0))).toInt := by
  unfold ScatterDims.start
  rw [dif_pos (show (0 : Fin 1) ∈ (scD1 wf).scatterDimsToOperandDims from List.mem_singleton.mpr rfl), sc1_siIdx]

theorem sc1_window (wf : ScatterDims.WF SN SE1 SE [] [0] [0] 1) (e : SE.Idx) : (scD1 wf).window e 0 = 0 := by
  unfold ScatterDims.window
  have h : (0 : Fin 1) ∉ (scD1 wf).sKept := by
    show (0 : Fin 1) ∉ SN.kept [0]
    decide
  rw [dif_neg h]

theorem sc2_start (wf : ScatterDims.WF SNK SE1 SEK [1] [0] [0] 1) {w : Nat} (y : SEK.Idx) (idx : IVec SE1 w) :
    (scD2 wf).start y idx 0 = (idx (edgeIdx (y 0))).toInt := by
  unfold ScatterDims.start
  rw [dif_pos (show (0 : Fin 2) ∈ (scD2 wf).scatterDimsToOperandDims from List.mem_singleton.mpr rfl), sc2_siIdx]

theorem sc2_window (wf : ScatterDims.WF SNK SE1 SEK [1] [0] [0] 1) (y : SEK.Idx) : (scD2 wf).window y 0 = 0 := by
  unfold ScatterDims.window
  have h : (0 : Fin 2) ∉ (scD2 wf).sKept := by
    show (0 : Fin 2) ∉ SNK.kept [0]
    decide
  rw [dif_neg h]

/-! ## The gathers on the node axis: the start index clamped into [0, 99999] -/

theorem ga1_op (wf : GatherDims.WF SN SE1 SE [] [0] [] [0] [] 1 ![1]) {w : Nat} (e : SE.Idx) (idx : IVec SE1 w) :
    ((gaD1 wf).operandIdx e idx 0).val = min (idx (edgeIdx (e 0))).toInt.toNat (100000 - 1) := by
  show (gaD1 wf).start e idx 0 + (gaD1 wf).batchCoord e 0 + (gaD1 wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gaD1 wf).startIndexMap from List.mem_singleton.mpr rfl), ga1_siIdx]
  rfl

theorem ga2_op0 (wf : GatherDims.WF SNK SE1 SEK [1] [0] [] [0] [] 1 ![1, 128]) {w : Nat} (y : SEK.Idx)
    (idx : IVec SE1 w) :
    ((gaD2 wf).operandIdx y idx 0).val = min (idx (edgeIdx (y 0))).toInt.toNat (100000 - 1) := by
  show (gaD2 wf).start y idx 0 + (gaD2 wf).batchCoord y 0 + (gaD2 wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gaD2 wf).startIndexMap from List.mem_singleton.mpr rfl), ga2_siIdx]
  rfl

/-- The row a rank-2 gather reads for output (e, k) is the entry the rank-1 gather reads for e. -/
theorem ga2_row (wf1 : GatherDims.WF SN SE1 SE [] [0] [] [0] [] 1 ![1])
    (wf2 : GatherDims.WF SNK SE1 SEK [1] [0] [] [0] [] 1 ![1, 128]) {w : Nat} (idx : IVec SE1 w) (y : SEK.Idx) :
    (ix1 ((gaD2 wf2).operandIdx y idx 0) : SN.Idx) = (gaD1 wf1).operandIdx (ix1 (y 0)) idx := by
  rw [eq_ix1 ((gaD1 wf1).operandIdx (ix1 (y 0)) idx)]
  congr 1
  refine Fin.ext ?_
  rw [ga2_op0, ga1_op]

/-- GATHER OF A ROW-SCALED ARRAY: the gathered rows of (n, k) ↦ D n * H (n, k) are the gathered D times the
    gathered H. -/
theorem gather_mul (wf1 : GatherDims.WF SN SE1 SE [] [0] [] [0] [] 1 ![1])
    (wf2 : GatherDims.WF SNK SE1 SEK [1] [0] [] [0] [] 1 ![1, 128]) {w : Nat}
    (D : SN.Idx → EReal) (H : SNK.Idx → EReal) (idx : IVec SE1 w) (y : SEK.Idx) :
    Host.gather (gaD2 wf2) (fun i => D (ix1 (i 0)) * H i) idx y
      = Host.gather (gaD1 wf1) D idx (ix1 (y 0)) * Host.gather (gaD2 wf2) H idx y := by
  unfold Host.gather
  show D (ix1 ((gaD2 wf2).operandIdx y idx 0)) * H ((gaD2 wf2).operandIdx y idx) = _
  rw [ga2_row wf1 wf2]

/-! ## Landing: a row lands on a node's row only if its edge lands on the node -/

/-- An update (e, k) of the rank-2 scatter that lands on (n, k') has start index n. -/
theorem sc2_land_start (wf : ScatterDims.WF SNK SE1 SEK [1] [0] [0] 1) {w : Nat} (idx : IVec SE1 w) (y : SEK.Idx)
    (i : SNK.Idx) (h : (scD2 wf).resultIdx? y idx = some i) : (idx (edgeIdx (y 0))).toInt = ((i 0).val : Int) := by
  unfold ScatterDims.resultIdx? at h
  split at h
  · rename_i hr
    have hi := Option.some.inj h
    have h0 := hr 0
    have hv : (i 0).val = ((scD2 wf).start y idx 0 + ((scD2 wf).window y 0 : Nat)).toNat := by rw [← hi]
    rw [sc2_start, sc2_window] at h0 hv
    omega
  · exact absurd h (by simp)

/-- An edge whose start index is node n lands on n in the rank-1 scatter. -/
theorem sc1_land_of_start (wf : ScatterDims.WF SN SE1 SE [] [0] [0] 1) {w : Nat} (idx : IVec SE1 w) (e : SE.Idx)
    (n : Fin 100000) (h : (idx (edgeIdx (e 0))).toInt = (n.val : Int)) :
    (scD1 wf).resultIdx? e idx = some (ix1 n) := by
  have hn := n.isLt
  have hr : ∀ a, 0 ≤ (scD1 wf).start e idx a + (scD1 wf).window e a ∧
      (scD1 wf).start e idx a + (scD1 wf).window e a < SN.size a := by
    intro a
    obtain rfl : a = 0 := Subsingleton.elim _ _
    rw [sc1_start, sc1_window, h]
    refine ⟨by omega, ?_⟩
    show (n.val : Int) + ((0 : Nat) : Int) < ((100000 : Nat) : Int)
    omega
  unfold ScatterDims.resultIdx?
  rw [dif_pos hr]
  congr 1
  funext a
  obtain rfl : a = 0 := Subsingleton.elim _ _
  refine Fin.ext ?_
  show ((scD1 wf).start e idx 0 + ((scD1 wf).window e 0 : Nat)).toNat = n.val
  rw [sc1_start, sc1_window, h]
  omega

/-- A row (e, k) that lands on (n, k') in the rank-2 scatter has its edge e landing on n in the rank-1 scatter. -/
theorem land2_imp_land1 (wf1 : ScatterDims.WF SN SE1 SE [] [0] [0] 1)
    (wf2 : ScatterDims.WF SNK SE1 SEK [1] [0] [0] 1) {w : Nat} (idx : IVec SE1 w) (y : SEK.Idx) (i : SNK.Idx)
    (h : (scD2 wf2).resultIdx? y idx = some i) :
    (scD1 wf1).resultIdx? (ix1 (y 0)) idx = some (ix1 (i 0) : SN.Idx) :=
  sc1_land_of_start wf1 idx (ix1 (y 0)) (i 0) (sc2_land_start wf2 idx y i h)

/-! ## The normalised sum -/

/-- Left distributivity in the extended reals in the two cases that occur: the factor is ⊤ and the first summand 0,
    or the factor is a nonnegative real. -/
theorem dist_aux (D A h : EReal) (hc : (D = ⊤ ∧ A = 0) ∨ (0 ≤ D ∧ D ≠ ⊤)) :
    D * (A + D * h) = D * A + (D * D) * h := by
  rcases hc with ⟨rfl, rfl⟩ | ⟨h0, ht⟩
  · rw [zero_add, mul_zero, zero_add, mul_assoc]
  · rw [EReal.left_distrib_of_nonneg_of_ne_top h0 ht, mul_assoc]

/-- The reciprocal square root of a natural number: ⊤ at 0, a nonnegative real otherwise. -/
theorem rsqrt_nat (n : Nat) :
    (n = 0 ∧ Ideal.rsqrt (n : EReal) = ⊤) ∨ (0 < n ∧ 0 ≤ Ideal.rsqrt (n : EReal) ∧ Ideal.rsqrt (n : EReal) ≠ ⊤) := by
  rw [← EReal.coe_coe_eq_natCast, Ideal.rsqrt_coe]
  rcases Nat.eq_zero_or_pos n with rfl | hn
  · left
    refine ⟨rfl, ?_⟩
    rw [if_neg (by simp), if_pos (by simp)]
  · right
    have hr : (0 : ℝ) < (n : ℝ) := Nat.cast_pos.mpr hn
    rw [if_neg (not_lt.mpr hr.le), if_neg hr.ne']
    exact ⟨hn, EReal.coe_nonneg.mpr (inv_nonneg.mpr (Real.sqrt_nonneg _)), EReal.coe_ne_top _⟩

/-- The in-degree scatter: ones added along the edges, from zero, count the edges landing on a node. -/
theorem degree_eq_card (wf1 : ScatterDims.WF SN SE1 SE [] [0] [0] 1) {w : Nat} (idx : IVec SE1 w) (n : SN.Idx) :
    Ideal.hostScatterAdd (scD1 wf1) (fun _ => (0 : EReal)) idx (fun _ => (1 : EReal)) n
      = (((Finset.univ.filter (fun e : SE.Idx => (scD1 wf1).resultIdx? e idx = some n)).card : Nat) : EReal) := by
  unfold Ideal.hostScatterAdd
  rw [zero_add, Finset.sum_const, nsmul_one]

/-- The reciprocal square root of a node's in-degree: ⊤ when no edge lands on the node, a nonnegative real
    otherwise. -/
theorem degree_cases (wf1 : ScatterDims.WF SN SE1 SE [] [0] [0] 1) {w : Nat} (idx : IVec SE1 w) (n : SN.Idx) :
    ((∀ e : SE.Idx, (scD1 wf1).resultIdx? e idx ≠ some n) ∧
        Ideal.rsqrt (Ideal.hostScatterAdd (scD1 wf1) (fun _ => (0 : EReal)) idx (fun _ => (1 : EReal)) n) = ⊤) ∨
      (0 ≤ Ideal.rsqrt (Ideal.hostScatterAdd (scD1 wf1) (fun _ => (0 : EReal)) idx (fun _ => (1 : EReal)) n) ∧
        Ideal.rsqrt (Ideal.hostScatterAdd (scD1 wf1) (fun _ => (0 : EReal)) idx (fun _ => (1 : EReal)) n) ≠ ⊤) := by
  rw [degree_eq_card]
  rcases rsqrt_nat (Finset.univ.filter (fun e : SE.Idx => (scD1 wf1).resultIdx? e idx = some n)).card with
    ⟨h0, ht⟩ | ⟨_, hnn, hnt⟩
  · left
    refine ⟨fun e he => ?_, ht⟩
    have hm : e ∈ Finset.univ.filter (fun e : SE.Idx => (scD1 wf1).resultIdx? e idx = some n) :=
      Finset.mem_filter.mpr ⟨Finset.mem_univ _, he⟩
    rw [Finset.card_eq_zero.mp h0] at hm
    exact absurd hm (Finset.notMem_empty _)
  · exact Or.inr ⟨hnn, hnt⟩

/-- A node no edge lands on receives nothing in the rank-2 scatter from zero. -/
theorem scatter2_eq_zero (wf1 : ScatterDims.WF SN SE1 SE [] [0] [0] 1)
    (wf2 : ScatterDims.WF SNK SE1 SEK [1] [0] [0] 1) {w : Nat} (idx : IVec SE1 w) (upd : SEK.Idx → EReal)
    (i : SNK.Idx) (h0 : ∀ e : SE.Idx, (scD1 wf1).resultIdx? e idx ≠ some (ix1 (i 0) : SN.Idx)) :
    Ideal.hostScatterAdd (scD2 wf2) (fun _ => (0 : EReal)) idx upd i = 0 := by
  unfold Ideal.hostScatterAdd
  have he : Finset.univ.filter (fun y : SEK.Idx => (scD2 wf2).resultIdx? y idx = some i) = ∅ := by
    rw [Finset.filter_eq_empty_iff]
    intro y _ hy
    exact h0 (ix1 (y 0)) (land2_imp_land1 wf1 wf2 idx y i hy)
  rw [he, Finset.sum_empty, add_zero]

/-- THE NORMALISED SUM DISTRIBUTES: with D the reciprocal square root of node n's in-degree and A what the rank-2
    scatter adds into row (n, k), D * (A + D * h) = D * A + (D * D) * h. -/
theorem combine (wf1 : ScatterDims.WF SN SE1 SE [] [0] [0] 1) (wf2 : ScatterDims.WF SNK SE1 SEK [1] [0] [0] 1)
    {w : Nat} (idx : IVec SE1 w) (upd : SEK.Idx → EReal) (H : SNK.Idx → EReal) (i : SNK.Idx) :
    Ideal.rsqrt (Ideal.hostScatterAdd (scD1 wf1) (fun _ => (0 : EReal)) idx (fun _ => (1 : EReal)) (ix1 (i 0)))
        * (Ideal.hostScatterAdd (scD2 wf2) (fun _ => (0 : EReal)) idx upd i
          + Ideal.rsqrt (Ideal.hostScatterAdd (scD1 wf1) (fun _ => (0 : EReal)) idx (fun _ => (1 : EReal)) (ix1 (i 0)))
            * H i)
      = Ideal.rsqrt (Ideal.hostScatterAdd (scD1 wf1) (fun _ => (0 : EReal)) idx (fun _ => (1 : EReal)) (ix1 (i 0)))
          * Ideal.hostScatterAdd (scD2 wf2) (fun _ => (0 : EReal)) idx upd i
        + (Ideal.rsqrt (Ideal.hostScatterAdd (scD1 wf1) (fun _ => (0 : EReal)) idx (fun _ => (1 : EReal)) (ix1 (i 0)))
          * Ideal.rsqrt (Ideal.hostScatterAdd (scD1 wf1) (fun _ => (0 : EReal)) idx (fun _ => (1 : EReal)) (ix1 (i 0))))
          * H i := by
  apply dist_aux
  rcases degree_cases wf1 idx (ix1 (i 0)) with ⟨h0, ht⟩ | ⟨hnn, hnt⟩
  · exact Or.inl ⟨ht, scatter2_eq_zero wf1 wf2 idx upd i h0⟩
  · exact Or.inr ⟨hnn, hnt⟩

end Cert.SegIndex

end
-- ==== Proof.Bridge.lean ====
/-
  The kernel's result and the reference's result are one array.

  Write D[r] for the inverse square root of node r's degree, H[r,k] for the projection (x W^T + b)[r,k], and for an edge
  e with source row(e) and (normalized, clamped) target col(e) let the scatter add its update at row(e).
  The kernel computes   D[r] * ( sum over edges e at r of (D*H)[col(e),k]  +  D[r] * H[r,k] ),
  the reference         D[r] * ( sum over edges e at r of D[col(e)] * H[col(e),k] )  +  (D[r] * D[r]) * H[r,k].
  Gathering a row of the product D*H is the product of the gathered factors, so the two aggregates are the same sum;
  and the outer identity d*(a + d*h) = d*a + (d*d)*h holds on the extended reals because d = D[r] is either a
  nonnegative real, or it is infinite exactly when node r has no edge, in which case the aggregate a is an empty sum.
-/
import proofs.«172108_j19902878450413_2_alg».proof.Proof.KHost
import proofs.«172108_j19902878450413_2_alg».proof.Proof.SegIndex

set_option maxRecDepth 16384

noncomputable section

namespace Cert.Bridge

open Cert.KernelIdeal Cert.KernelIdeal.Gen
open Idealize.ShloMosaic Idealize.ShloMosaic.ValueIdx
open Cert.ReferenceIdeal.Read
open Cert.SegIndex

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- The float pattern of 1.0 denotes the real one. -/
theorem one_f32 : Ideal.ofBits .f32 0x3F800000#32 = 1 := by
  simp [Ideal.ofBits, Ideal.ieee, -EReal.coe_mul]; norm_num

theorem v5_zero : val_main_v5 (F := Ideal) = fun _ => (0 : EReal) := by
  funext j; rw [val_main_v5_apply, val_main_cst_0_apply]; exact Ideal.ofBits_zero_f32
theorem v31_zero : val_main_v31 (F := Ideal) = fun _ => (0 : EReal) := by
  funext j; rw [val_main_v31_apply, val_main_cst_4_apply]; exact Ideal.ofBits_zero_f32
theorem v4_one : val_main_v4 (F := Ideal) = fun _ => (1 : EReal) := by
  funext j; rw [val_main_v4_apply, val_main_cst_apply]; exact one_f32

/-- The degree column read at a row is the degree factor of that node. -/
theorem dcol_at (r : Fin 100000) : Host.dcolOf x1 (ix2 r 0) = val_main_v8 (F := Ideal) x1 (ix1 r) := by
  unfold Host.dcolOf
  exact shapeCast_apply _ shapeCasts_S100000_S100000x1 (ix2 r 0) (ix1 r) (by
    rewrite [Shape.rowMajor_val_one, Shape.rowMajor_val_two]; show r.val = r.val * 1 + 0; omega)

/-- The bias as a one-row matrix read at a column is the bias entry. -/
theorem bias_at (k : Fin 128) : shapeCast S1x128 x3 shapeCasts_S128_S1x128 (ix2 0 k) = x3 (ix1 k) :=
  shapeCast_apply x3 shapeCasts_S128_S1x128 (ix2 0 k) (ix1 k) (by
    rewrite [Shape.rowMajor_val_one, Shape.rowMajor_val_two]; show k.val = 0 * 128 + k.val; omega)

/-- The reference's projection at an entry: the row of x against the column of the transposed weights, plus the bias. -/
theorem h_at (r : Fin 100000) (k : Fin 128) :
    val_main_v13 (F := Ideal) x0 x2 x3 (ix2 r k) = Pay.dotRow (fun j => x0 (ix2 r j)) (fun j => val_main_v9 (F := Ideal) x2 (ix2 j k)) + x3 (ix1 k) := by
  show val_main_v13 (F := Ideal) x0 x2 x3 (ix2 r k) = _
  rw [val_main_v13_apply, val_main_v10_apply, val_main_v12_apply, val_main_v11_apply]
  have el : ∀ j : Fin 128, lidx_main_v10 (ix2 r k) j = ix2 r j := fun j => funext fun a => Fin.ext (by
    match a with | ⟨0, _⟩ => rfl | ⟨1, _⟩ => rfl)
  have er : ∀ j : Fin 128, ridx_main_v10 (ix2 r k) j = ix2 j k := fun j => funext fun a => Fin.ext (by
    match a with | ⟨0, _⟩ => rfl | ⟨1, _⟩ => rfl)
  have eb : idx_main_v11 (idx_main_v12 (ix2 r k)) = ix1 k := funext fun a => Fin.ext (by
    match a with | ⟨0, _⟩ => rfl)
  simp only [el, er, eb]
  rfl

/-- The projection region's output is the degree factor times the reference's projection, entry by entry. -/
theorem hn_eq : Host.hnOf x0 x1 x2 x3 = fun i => val_main_v8 (F := Ideal) x1 (ix1 (i 0)) * val_main_v13 (F := Ideal) x0 x2 x3 i := by
  funext i
  obtain ⟨r, k, rfl⟩ : ∃ (r : Fin 100000) (k : Fin 128), i = ix2 r k := ⟨i 0, i 1, eq_ix2 i⟩
  show Pay.lin (Host.dcolOf x1 (ix2 r 0)) (Pay.dotRow (fun j => x0 (ix2 r j)) (fun j => val_main_v9 (F := Ideal) x2 (ix2 j k)))
      (shapeCast S1x128 x3 shapeCasts_S128_S1x128 (ix2 0 k)) = val_main_v8 (F := Ideal) x1 (ix1 r) * val_main_v13 (F := Ideal) x0 x2 x3 (ix2 r k)
  rw [dcol_at, bias_at, h_at]; rfl

/-- The gathered rows of the scaled projection are the reference's edge messages. -/
theorem upd_eq : Host.gather gather_S100000x128_S1600000x1_S1600000x128_1_0_n_n_0_1_1128 (Host.hnOf x0 x1 x2 x3) (val_main_v27 (F := Ideal) x1)
    = val_main_v30 (F := Ideal) x0 x1 x2 x3 := by
  rw [hn_eq]
  funext y
  refine (gather_mul Cert.ReferenceIdeal.gather_S100000_S1600000x1_S1600000_n_0_n_n_0_1_1.wf
    gather_S100000x128_S1600000x1_S1600000x128_1_0_n_n_0_1_1128.wf (val_main_v8 (F := Ideal) x1) (val_main_v13 (F := Ideal) x0 x2 x3) (val_main_v27 (F := Ideal) x1) y).trans ?_
  rw [val_main_v30_apply, val_main_v29_apply, val_main_v21_apply]
  have e : idx_main_v21 (idx_main_v29 y) = ix1 (y 0) := funext fun a => Fin.ext (by match a with | ⟨0, _⟩ => rfl)
  rw [e]; rfl

/-- The two aggregates are the same accumulating scatter. -/
theorem agg_eq : Host.aggOf x0 x1 x2 x3 = val_main_v33 (F := Ideal) x0 x1 x2 x3 := by
  unfold Host.aggOf; rw [upd_eq]; rfl

/-- The reference's scatter records are the literal dimension numbers. -/
theorem sc1_eq : Cert.ReferenceIdeal.scatter_S100000_S1600000x1_S1600000_n_0_0_1
    = scD1 Cert.ReferenceIdeal.Facts₀.scatter_S100000_S1600000x1_S1600000_n_0_0_1_wf := rfl
theorem sc2_eq : Cert.ReferenceIdeal.scatter_S100000x128_S1600000x1_S1600000x128_1_0_0_1
    = scD2 Cert.ReferenceIdeal.Facts₀.scatter_S100000x128_S1600000x1_S1600000x128_1_0_0_1_wf := rfl
/-- Both scatters read the same array of source rows. -/
theorem v32_eq_v6 : val_main_v32 (F := Ideal) x1 = val_main_v6 (F := Ideal) x1 := rfl

/-- The degrees: the accumulating scatter of ones at the source rows, from zero. -/
theorem v7_eq : val_main_v7 (F := Ideal) x1 = Ideal.hostScatterAdd
    (scD1 Cert.ReferenceIdeal.Facts₀.scatter_S100000_S1600000x1_S1600000_n_0_0_1_wf) (fun _ => (0 : EReal)) (val_main_v6 (F := Ideal) x1) (fun _ => (1 : EReal)) := by
  unfold val_main_v7 Host.scatterAdd
  rw [Ideal.hostScatterAdd_def, v5_zero, v4_one, sc1_eq]

/-- The degree factor of a node is the inverse square root of the count of the edges that leave it. -/
theorem v8_at (j : SN.Idx) : val_main_v8 (F := Ideal) x1 j = Ideal.rsqrt (Ideal.hostScatterAdd
    (scD1 Cert.ReferenceIdeal.Facts₀.scatter_S100000_S1600000x1_S1600000_n_0_0_1_wf) (fun _ => (0 : EReal)) (val_main_v6 (F := Ideal) x1) (fun _ => (1 : EReal)) j) := by
  rw [val_main_v8_apply, Ideal.hostUnary_rsqrt_def, v7_eq]

/-- The reference's aggregate is the accumulating scatter of its edge messages at the source rows, from zero. -/
theorem v33_eq : val_main_v33 (F := Ideal) x0 x1 x2 x3 = Ideal.hostScatterAdd
    (scD2 Cert.ReferenceIdeal.Facts₀.scatter_S100000x128_S1600000x1_S1600000x128_1_0_0_1_wf) (fun _ => (0 : EReal)) (val_main_v6 (F := Ideal) x1)
    (val_main_v30 (F := Ideal) x0 x1 x2 x3) := by
  unfold val_main_v33 Host.scatterAdd
  rw [Ideal.hostScatterAdd_def, v31_zero, sc2_eq, v32_eq_v6]

/-- The reference's result at an entry, over its degree factors, its aggregate and its projection. -/
theorem ref_at (i : SNK.Idx) :
    val_main_v41 (F := Ideal) x0 x1 x2 x3 i
      = val_main_v8 (F := Ideal) x1 (ix1 (i 0)) * val_main_v33 (F := Ideal) x0 x1 x2 x3 i
        + (val_main_v8 (F := Ideal) x1 (ix1 (i 0)) * val_main_v8 (F := Ideal) x1 (ix1 (i 0))) * val_main_v13 (F := Ideal) x0 x2 x3 i := by
  rw [val_main_v41_apply, val_main_v36_apply, val_main_v40_apply, val_main_v35_apply, val_main_v34_apply,
    val_main_v39_apply, val_main_v38_apply, val_main_v37_apply]
  have e1 : idx_main_v34 (idx_main_v35 i) = ix1 (i 0) := funext fun a => Fin.ext (by match a with | ⟨0, _⟩ => rfl)
  have e2 : idx_main_v38 (idx_main_v39 i) = ix1 (i 0) := funext fun a => Fin.ext (by match a with | ⟨0, _⟩ => rfl)
  rw [e1, e2]
  rfl

/-- The kernel's result at an entry, over the same three arrays. -/
theorem ker_at (i : SNK.Idx) :
    Combine.G (Host.dcolOf x1) (Host.aggOf x0 x1 x2 x3) (Host.hnOf x0 x1 x2 x3) i
      = val_main_v8 (F := Ideal) x1 (ix1 (i 0)) * (val_main_v33 (F := Ideal) x0 x1 x2 x3 i
        + val_main_v8 (F := Ideal) x1 (ix1 (i 0)) * val_main_v13 (F := Ideal) x0 x2 x3 i) := by
  show Pay.comb (Host.dcolOf x1 (ix2 (i 0) 0)) (Host.aggOf x0 x1 x2 x3 i) (Host.hnOf x0 x1 x2 x3 i) = _
  rw [agg_eq, hn_eq]
  exact congrArg (fun d : EReal => Pay.comb d (val_main_v33 (F := Ideal) x0 x1 x2 x3 i)
    (val_main_v8 (F := Ideal) x1 (ix1 (i 0)) * val_main_v13 (F := Ideal) x0 x2 x3 i)) (dcol_at x1 (i 0))

/-- THE BRIDGE: the kernel's result array is the reference's. -/
theorem kernel_eq_reference :
    Combine.G (Host.dcolOf x1) (Host.aggOf x0 x1 x2 x3) (Host.hnOf x0 x1 x2 x3) = val_main_v41 (F := Ideal) x0 x1 x2 x3 := by
  funext i
  rw [ref_at, ker_at, v33_eq, v8_at]
  exact combine Cert.ReferenceIdeal.Facts₀.scatter_S100000_S1600000x1_S1600000_n_0_0_1_wf
    Cert.ReferenceIdeal.Facts₀.scatter_S100000x128_S1600000x1_S1600000x128_1_0_0_1_wf (val_main_v6 (F := Ideal) x1)
    (val_main_v30 (F := Ideal) x0 x1 x2 x3) (val_main_v13 (F := Ideal) x0 x2 x3) i

end Cert.Bridge

end
-- ==== Proof.lean ====
/-
  One graph-convolution layer, computed two ways.

  With N = 100000 nodes, E = 1600000 edges (a source row and a target column per edge), features x : N × 128,
  weights W : 128 × 128 and bias b : 128, let deg[r] be the number of edges whose source is r, D[r] = deg[r]^(-1/2),
  and H = x W^T + b.  The kernel computes  HN = D * H  (row-scaled) in a first blocked pass, aggregates
  AGG[r] = sum over edges e with source r of HN[target(e)]  on the host, and finishes with  D[r] * (AGG[r] + HN[r])
  in a second blocked pass.  The reference computes  D[r] * (sum over edges e with source r of D[target(e)] * H[target(e)])
  + (D[r] * D[r]) * H[r].

  On the extended reals the two agree entry by entry: a gathered row of D * H is the product of the gathered factors,
  so the aggregates are the same sums; and d * (a + d * h) = d * a + (d * d) * h holds because d = D[r] is a nonnegative
  real when node r has an edge, while when it has none d is infinite and the aggregate a is an empty sum, zero.
  The narrowing of the matrix product's factors to a shorter float format is the identity on the extended reals,
  and the kernel's product into a zero accumulator is the reference's contraction.

  The three frame claims are the programs' runs; nothing was rewritten between the kernel and its idealization, so
  that claim is trivial.
-/
import proofs.«172108_j19902878450413_2_alg».proof.Defs
import proofs.«172108_j19902878450413_2_alg».proof.Proof.Gen.Kernel
import proofs.«172108_j19902878450413_2_alg».proof.Proof.Gen.Kernel.Skeleton
import proofs.«172108_j19902878450413_2_alg».proof.Proof.Gen.Kernel.Launch
import proofs.«172108_j19902878450413_2_alg».proof.Proof.Gen.Kernel.Points
import proofs.«172108_j19902878450413_2_alg».proof.Proof.Gen.Kernel.Frame
import proofs.«172108_j19902878450413_2_alg».proof.Proof.Gen.KernelIdeal
import proofs.«172108_j19902878450413_2_alg».proof.Proof.Gen.KernelIdeal.Skeleton
import proofs.«172108_j19902878450413_2_alg».proof.Proof.Gen.KernelIdeal.Launch
import proofs.«172108_j19902878450413_2_alg».proof.Proof.Gen.KernelIdeal.Points
import proofs.«172108_j19902878450413_2_alg».proof.Proof.Gen.KernelIdeal.Frame
import proofs.«172108_j19902878450413_2_alg».proof.Proof.Gen.ReferenceIdeal
import proofs.«172108_j19902878450413_2_alg».proof.Proof.Gen.ReferenceIdeal.Run
import proofs.«172108_j19902878450413_2_alg».proof.Proof.Gen.ReferenceIdeal.Read
import proofs.«172108_j19902878450413_2_alg».proof.Proof.Gen.Pre_finite_inputs
import proofs.«172108_j19902878450413_2_alg».proof.Proof.KRun
import proofs.«172108_j19902878450413_2_alg».proof.Proof.KHost
import proofs.«172108_j19902878450413_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs run to the same result array: the reference's last stage of the common arguments. -/
theorem algebraic : Cert.algebraic_KernelIdeal_ReferenceIdeal := by
  intro m ρ m' ρ' _ hagree
  refine ⟨fun c => Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Run.run_result (F := Ideal) m ρ)
    exact (Cert.KernelIdeal.Host.result_eq m ρ c).trans (Cert.Bridge.kernel_eq_reference _ _ _ _)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
